-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel

variable [Facts]

def fn {F : FTy → Type} [FloatOps F] (main_arg0 : FVec F S16x512x1024 .f32) (main_arg1 : FVec F S16x512x1024 .f32) (main_arg2 : FVec F S16x512x1024 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S16x512x1024 .f32 := Host.absf main_arg1
  let main_cst_0 : FVec F S_ .f32 := constant S_ .f32 0x7F800000#32
  let main_v5 : FVec F S16x512x1024 .f32 := broadcastInDim S16x512x1024 ![] bcast_S_S16x512x1024 main_cst_0
  let main_v6 : IVec S16x512x1024 1 := cmpf .olt main_v4 main_v5
  let main_c_1 : IVec S_ 1 := constantI S_ 1 1#1
  let main_v7 : IVec S_ 1 := (fun x v => Host.reduce IntOp.andi x v reducesTo_S16x512x1024_S_d0_1_2 h_S_) main_v6 main_c_1
  let main_v8 : IVec S_ 1 := andi main_v3 main_v7
  let main_v9 : FVec F S16x512x1024 .f32 := Host.absf main_arg2
  let main_cst_2 : FVec F S_ .f32 := constant S_ .f32 0x7F800000#32
  let main_v10 : FVec F S16x512x1024 .f32 := broadcastInDim S16x512x1024 ![] bcast_S_S16x512x1024 main_cst_2
  let main_v11 : IVec S16x512x1024 1 := cmpf .olt main_v9 main_v10
  let main_c_3 : IVec S_ 1 := constantI S_ 1 1#1
  let main_v12 : IVec S_ 1 := (fun x v => Host.reduce IntOp.andi x v reducesTo_S16x512x1024_S_d0_1_2 h_S_) main_v11 main_c_3
  let main_v13 : IVec S_ 1 := andi main_v8 main_v12
  main_v13
-- ==== Kernel.lean ====
abbrev S16x512x1024 : Shape := ⟨3, ![16, 512, 1024]⟩
abbrev S16x512x128 : Shape := ⟨3, ![16, 512, 128]⟩
abbrev S16x1024x128 : Shape := ⟨3, ![16, 1024, 128]⟩
abbrev S1024x128 : Shape := ⟨2, ![1024, 128]⟩
abbrev S1x1024x128 : Shape := ⟨3, ![1, 1024, 128]⟩

abbrev nBuf : Space → Nat
  | .hbm => 6
  | .vmem => 4
  | .smem => 0
  | _ => 0

abbrev bufTy : (tb : Table) → Fin (tcTables nBuf tb) → BufTy
  | .hbm, ⟨0, _⟩ => ⟨S16x512x1024, .f32⟩
  | .hbm, ⟨1, _⟩ => ⟨S16x512x1024, .f32⟩
  | .hbm, ⟨2, _⟩ => ⟨S16x512x1024, .f32⟩
  | .hbm, ⟨3, _⟩ => ⟨S16x512x1024, .bf16⟩
  | .hbm, ⟨4, _⟩ => ⟨S16x512x1024, .bf16⟩
  | .hbm, ⟨5, _⟩ => ⟨S16x512x1024, .f32⟩
  | .local _ .vmem, ⟨0, _⟩ => ⟨S16x512x128, .f32⟩
  | .local _ .vmem, ⟨1, _⟩ => ⟨S16x512x1024, .bf16⟩
  | .local _ .vmem, ⟨2, _⟩ => ⟨S16x512x1024, .bf16⟩
  | .local _ .vmem, ⟨3, _⟩ => ⟨S16x512x128, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S16x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

class Facts₀ : Prop where
  bitsLt_bf16_f32 : FTy.bits .bf16 < FTy.bits .f32
  inb_S16x512x128_S16x512x128_0_0_0 : ∀ a, (![0, 0, 0] : Fin 3 → Nat) a + S16x512x128.size a ≤ S16x512x128.size a
  h_S16x512x128 : 0 < S16x512x128.numel
  inb_S16x512x1024_S16x512x1024_0_0_0 : ∀ a, (![0, 0, 0] : Fin 3 → Nat) a + S16x512x1024.size a ≤ S16x512x1024.size a
  h_S16x512x1024 : 0 < S16x512x1024.numel
  shapeCasts_S16x512x1024_S16x512x1024 : S16x512x1024.ShapeCasts S16x512x1024
  reduces_S16x1024x128_S1024x128 : S16x1024x128.Reduces [0] S1024x128
  shapeCasts_S1024x128_S1x1024x128 : S1024x128.ShapeCasts S1x1024x128
  broadcasts_S1x1024x128_S16x1024x128 : S1x1024x128.Broadcasts S16x1024x128
  dot_S16x512x1024_S16x512x128_S16x1024x128_1_1_2_2_0_0_wf : DotDims.WF S16x512x1024 S16x512x128 S16x1024x128 [1] [1] [2] [2] [0] [0]
  dot_S16x512x1024_S16x1024x128_S16x512x128_2_1_1_2_0_0_wf : DotDims.WF S16x512x1024 S16x1024x128 S16x512x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x512x128.size a ≤ S16x512x1024.size a
  hwx0_0 : ∀ i : grid0.Coords, EltTy.bits .f32 = 32 ∨ (Rect.block (s := S16x512x1024) S16x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512x1024.size a ≤ S16x512x1024.size a
  hwx0_1 : ∀ i : grid0.Coords, EltTy.bits .bf16 = 32 ∨ (Rect.block (s := S16x512x1024) S16x512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x512x1024.size a ≤ S16x512x1024.size a
  hwx0_2 : ∀ i : grid0.Coords, EltTy.bits .bf16 = 32 ∨ (Rect.block (s := S16x512x1024) S16x512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x512x128.size a ≤ S16x512x1024.size a
  hwx0_3 : ∀ i : grid0.Coords, EltTy.bits .f32 = 32 ∨ (Rect.block (s := S16x512x1024) S16x512x128.size (cc0_transform_3 i) (hinb0_3 i)).WholeWords (EltTy.packing .f32)

variable [Facts₀]

def dot_S16x512x1024_S16x512x128_S16x1024x128_1_1_2_2_0_0 : DotDims S16x512x1024 S16x512x128 S16x1024x128 where
  lhsContracting := [1]
  rhsContracting := [1]
  lhsNonContracting := [2]
  rhsNonContracting := [2]
  lhsBatch := [0]
  rhsBatch := [0]
  wf := dot_S16x512x1024_S16x512x128_S16x1024x128_1_1_2_2_0_0_wf
def dot_S16x512x1024_S16x1024x128_S16x512x128_2_1_1_2_0_0 : DotDims S16x512x1024 S16x1024x128 S16x512x128 where
  lhsContracting := [2]
  rhsContracting := [1]
  lhsNonContracting := [1]
  rhsNonContracting := [2]
  lhsBatch := [0]
  rhsBatch := [0]
  wf := dot_S16x512x1024_S16x1024x128_S16x512x128_2_1_1_2_0_0_wf

abbrev win0_0 : Pipeline.Window sig grid0 :=
  Pipeline.Window.ofSpec (Memref.whole main_arg0) S16x512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x512x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x1024 : Shape := ⟨3, ![16, 512, 1024]⟩
abbrev S16x1024x1024 : Shape := ⟨3, ![16, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S16x512x1024, .f32⟩
  | .hbm, ⟨2, _⟩ => ⟨S16x512x1024, .f32⟩
  | .hbm, ⟨3, _⟩ => ⟨S16x1024x1024, .f32⟩
  | .hbm, ⟨4, _⟩ => ⟨S_, .f32⟩
  | .hbm, ⟨5, _⟩ => ⟨S16x1024x1024, .f32⟩
  | .hbm, ⟨6, _⟩ => ⟨S16x1024x1024, .f32⟩
  | .hbm, ⟨7, _⟩ => ⟨S_, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S1024x1024, .f32⟩
  | .hbm, ⟨18, _⟩ => ⟨S1x1024x1024, .f32⟩
  | .hbm, ⟨19, _⟩ => ⟨S16x1024x1024, .f32⟩
  | .hbm, ⟨20, _⟩ => ⟨S16x1024x1024, .f32⟩
  | .hbm, ⟨21, _⟩ => ⟨S16x512x1024, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  reducesTo_S16x1024x1024_S1024x1024_d0 : S16x1024x1024.ReducesTo [0] S1024x1024
  h_S_ : 0 < S_.numel
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  dot_S16x512x1024_S16x512x1024_S16x1024x1024_1_1_2_2_0_0_wf : DotDims.WF S16x512x1024 S16x512x1024 S16x1024x1024 [1] [1] [2] [2] [0] [0]
  dot_S16x512x1024_S16x1024x1024_S16x512x1024_2_1_1_2_0_0_wf : DotDims.WF S16x512x1024 S16x1024x1024 S16x512x1024 [2] [1] [1] [2] [0] [0]

variable [Facts₀]

def dot_S16x512x1024_S16x512x1024_S16x1024x1024_1_1_2_2_0_0 : DotDims S16x512x1024 S16x512x1024 S16x1024x1024 where
  lhsContracting := [1]
  rhsContracting := [1]
  lhsNonContracting := [2]
  rhsNonContracting := [2]
  lhsBatch := [0]
  rhsBatch := [0]
  wf := dot_S16x512x1024_S16x512x1024_S16x1024x1024_1_1_2_2_0_0_wf
def dot_S16x512x1024_S16x1024x1024_S16x512x1024_2_1_1_2_0_0 : DotDims S16x512x1024 S16x1024x1024 S16x512x1024 where
  lhsContracting := [2]
  rhsContracting := [1]
  lhsNonContracting := [1]
  rhsNonContracting := [2]
  lhsBatch := [0]
  rhsBatch := [0]
  wf := dot_S16x512x1024_S16x1024x1024_S16x512x1024_2_1_1_2_0_0_wf

class Facts : Prop extends Facts₀ where

variable [Facts]
-- ==== Proof.BatchSoftmax.lean ====
/-
  Attention whose softmax runs over the BATCH axis, as one function of the arrays, index by index.

  Keys and values are [16, 512, 1024] arrays over (batch b, channel c, position i); queries are a [16, 512, w] array over
  (b, c, j), with w = 1024 for the whole problem and w = 128 for one tile of query positions. On the extended reals:

    score b i j  = (sum over c of k[b, c, i] * q[b, c, j]) / 32
    peak i j     = the maximum over the 16 batches b of score b i j       (folded from -inf)
    weight b i j = exp (score b i j - peak i j)
    total i j    = sum over b of weight b i j
    prob b i j   = weight b i j / total i j
    result b c j = sum over i of v[b, c, i] * prob b i j

  Every quantity at query position j reads the queries at position j only, so the result on a tile of query positions is
  the result of the tile (restrict). Dividing by 32 and multiplying by the float 2^-5 agree on every extended real,
  the infinities included (mul_thirtysecond): nothing here needs the inputs to be finite.
-/
import Idealize.ShloMosaic.PureOps.Ideal
import Idealize.ShloMosaic.Lib.ValueIdx

noncomputable section

open scoped BigOperators

namespace BatchSoftmax

open Idealize.ShloMosaic Idealize.ShloMosaic.ValueIdx

/-- Keys, values and the whole query array: extended reals over (batch, channel, position). -/
abbrev Keys := (⟨3, ![16, 512, 1024]⟩ : Shape).Idx → EReal
/-- Queries at w positions. -/
abbrev Queries (w : ℕ) := (⟨3, ![16, 512, w]⟩ : Shape).Idx → EReal

variable {w : ℕ}

/-- The scaled inner product of key position i and query position j over the channels, in batch b. -/
def score (q : Queries w) (k : Keys) (b : Fin 16) (i : Fin 1024) (j : Fin w) : EReal :=
  Ideal.div (∑ c : Fin 512, k (ix3 b c i) * q (ix3 b c j)) (Ideal.ofBits .f32 0x42000000#32)

/-- The largest score over the batches at (i, j). -/
def peak (q : Queries w) (k : Keys) (i : Fin 1024) (j : Fin w) : EReal :=
  (Finset.univ : Finset (Fin 16)).fold max (Ideal.ofBits .f32 0xFF800000#32) (fun b => score q k b i j)

/-- The exponential of a score below the peak. -/
def weight (q : Queries w) (k : Keys) (b : Fin 16) (i : Fin 1024) (j : Fin w) : EReal :=
  Ideal.exp (score q k b i j - peak q k i j)

/-- The weights summed over the batches. -/
def total (q : Queries w) (k : Keys) (i : Fin 1024) (j : Fin w) : EReal :=
  ∑ b : Fin 16, weight q k b i j

/-- The softmax over the batch axis. -/
def prob (q : Queries w) (k : Keys) (b : Fin 16) (i : Fin 1024) (j : Fin w) : EReal :=
  Ideal.div (weight q k b i j) (total q k i j)

/-- The values averaged by the softmax, over the key positions. -/
def resultAt (q : Queries w) (k v : Keys) (b : Fin 16) (c : Fin 512) (j : Fin w) : EReal :=
  ∑ i : Fin 1024, v (ix3 b c i) * prob q k b i j

/-- The result as an array over (batch, channel, query position). -/
def result (q : Queries w) (k v : Keys) : Queries w := fun x => resultAt q k v (x 0) (x 1) (x 2)

theorem result_ix3 (q : Queries w) (k v : Keys) (b : Fin 16) (c : Fin 512) (j : Fin w) :
    result q k v (ix3 b c j) = resultAt q k v b c j := rfl

/-! ## A tile of query positions -/

variable {w' : ℕ}

/-- If the tile's queries are the array's at the positions pos j, the tile's scores are the array's there. -/
theorem score_restrict (q : Queries w) (qt : Queries w') (pos : Fin w' → Fin w)
    (h : ∀ b c j, qt (ix3 b c j) = q (ix3 b c (pos j))) (k : Keys) (b : Fin 16) (i : Fin 1024) (j : Fin w') :
    score qt k b i j = score q k b i (pos j) := by
  unfold score
  simp only [h]

/-- ... and so is the tile's result. -/
theorem resultAt_restrict (q : Queries w) (qt : Queries w') (pos : Fin w' → Fin w)
    (h : ∀ b c j, qt (ix3 b c j) = q (ix3 b c (pos j))) (k v : Keys) (b : Fin 16) (c : Fin 512) (j : Fin w') :
    resultAt qt k v b c j = resultAt q k v b c (pos j) := by
  unfold resultAt prob total weight peak
  simp only [score_restrict q qt pos h]

/-! ## The scale -/

/-- The float 32.0 denotes the real 32. -/
theorem thirtytwo : Ideal.ofBits .f32 0x42000000#32 = ((32 : ℝ) : EReal) := by
  simp [Ideal.ofBits, Ideal.ieee, -EReal.coe_mul]; norm_num

/-- The float 0.03125 denotes the real 1/32: it is 2^-5 exactly. -/
theorem thirtysecond : Ideal.ofBits .f32 0x3D000000#32 = ((1 / 32 : ℝ) : EReal) := by
  simp [Ideal.ofBits, Ideal.ieee, -EReal.coe_mul]; norm_num

/-- Multiplying by 2^-5 is dividing by 32, on every extended real. -/
theorem mul_thirtysecond (x : EReal) :
    x * Ideal.ofBits .f32 0x3D000000#32 = Ideal.div x (Ideal.ofBits .f32 0x42000000#32) := by
  rw [thirtysecond, thirtytwo, Ideal.div_coe (by norm_num : (32 : ℝ) ≠ 0)]

/-- The maximum with -inf is the other operand. -/
theorem max_neg_inf (y : EReal) : max (Ideal.ofBits .f32 0xFF800000#32) y = y := by
  simp [Ideal.ofBits, Ideal.ieee]

end BatchSoftmax

end
-- ==== Proof.ReferenceValue.lean ====
/-
  The reference computes the batch-softmax attention of its three arguments.

  Its program is, stage by stage: the contraction of keys and queries over the channels, divided by 32 (score); the
  maximum of the scores over the batch axis, taken from -inf and then once more against -inf, which changes nothing
  (peak); the exponential of the score below the peak (weight); the weights summed over the batch axis from zero
  (total); their quotient (prob); and the contraction of the values with the probabilities over the key positions. Each
  stage read at an index is the specification's quantity of the same name.
-/
import proofs.«148985_j21835613733572_2_alg».proof.Proof.Gen.ReferenceIdeal.Read
import proofs.«148985_j21835613733572_2_alg».proof.Proof.BatchSoftmax
import Idealize.ShloMosaic.PureOps.Ideal.Laws

noncomputable section

open scoped BigOperators

namespace Cert.ReferenceIdeal.Attention

open Cert.ReferenceIdeal Cert.ReferenceIdeal.Gen Cert.ReferenceIdeal.Read
open Idealize.ShloMosaic Idealize.ShloMosaic.ValueIdx BatchSoftmax

/-! ## Where each stage reads its operands -/

theorem key_idx (b : Fin 16) (i j : Fin 1024) (c : Fin 512) : lidx_main_v0 (ix3 b i j) c = ix3 b c i :=
  funext fun a => Fin.ext (by match a with | ⟨0, _⟩ => rfl | ⟨1, _⟩ => rfl | ⟨2, _⟩ => rfl)

theorem query_idx (b : Fin 16) (i j : Fin 1024) (c : Fin 512) : ridx_main_v0 (ix3 b i j) c = ix3 b c j :=
  funext fun a => Fin.ext (by match a with | ⟨0, _⟩ => rfl | ⟨1, _⟩ => rfl | ⟨2, _⟩ => rfl)

theorem peak_idx (b : Fin 16) (i j : Fin 1024) : idx_main_v6 (idx_main_v7 (ix3 b i j)) = ix2 i j :=
  funext fun a => Fin.ext (by match a with | ⟨0, _⟩ => rfl | ⟨1, _⟩ => rfl)

theorem batch_idx (i j : Fin 1024) (b : Fin 16) : idx_main_v10 (ix2 i j) b = ix3 b i j :=
  funext fun a => Fin.ext (by match a with | ⟨0, _⟩ => rfl | ⟨1, _⟩ => rfl | ⟨2, _⟩ => rfl)

theorem total_idx (b : Fin 16) (i j : Fin 1024) : idx_main_v11 (idx_main_v12 (ix3 b i j)) = ix2 i j :=
  funext fun a => Fin.ext (by match a with | ⟨0, _⟩ => rfl | ⟨1, _⟩ => rfl)

theorem value_idx (b : Fin 16) (c : Fin 512) (j i : Fin 1024) : lidx_main_v14 (ix3 b c j) i = ix3 b c i :=
  funext fun a => Fin.ext (by match a with | ⟨0, _⟩ => rfl | ⟨1, _⟩ => rfl | ⟨2, _⟩ => rfl)

theorem prob_idx (b : Fin 16) (c : Fin 512) (j i : Fin 1024) : ridx_main_v14 (ix3 b c j) i = ix3 b i j :=
  funext fun a => Fin.ext (by match a with | ⟨0, _⟩ => rfl | ⟨1, _⟩ => rfl | ⟨2, _⟩ => rfl)

/-- The index (i, j) of the reduced array with batch b put back is (b, i, j). -/
theorem lift_batch (h : S16x1024x1024.Reduces [0] S1024x1024) (i j : Fin 1024) (b : Fin (S16x1024x1024.size 0)) :
    h.lift (ix2 i j) b = ix3 (⟨b.val, b.isLt⟩ : Fin 16) i j := by
  funext a; apply Fin.ext
  fin_cases a <;> rfl

/-! ## The stages -/

variable (q k v : Keys)

/-- The scaled contraction over the channels. -/
theorem score_at (b : Fin 16) (i j : Fin 1024) : val_main_v2 (F := Ideal) q k (ix3 b i j) = score q k b i j := by
  rw [val_main_v2_apply, val_main_v0_apply, val_main_v1_apply, val_main_cst_apply]
  simp only [key_idx, query_idx]
  rfl

/-- The maximum over the batch axis; the second maximum, against -inf, is the identity. -/
theorem peak_at (i j : Fin 1024) : val_main_v5 (F := Ideal) q k (ix2 i j) = peak q k i j := by
  rw [val_main_v5_apply, val_main_v4_apply, val_main_cst_1_apply]
  show max (Ideal.ofBits .f32 0xFF800000#32) (val_main_v3 (F := Ideal) q k (ix2 i j)) = _
  rw [max_neg_inf]
  unfold val_main_v3
  have h : S16x1024x1024.Reduces [0] S1024x1024 := by decide
  rw [Host.reduce_eq_fold_single FloatOps.maximumf _ _ reducesTo_S16x1024x1024_S1024x1024_d0 h h_S_]
  have hf : (val_main_v2 (F := Ideal) q k ∘ h.lift (ix2 i j)) = fun b : Fin 16 => score q k b i j :=
    funext fun b => by
      show val_main_v2 (F := Ideal) q k (h.lift (ix2 i j) b) = _
      rw [lift_batch h i j b, score_at]
      rfl
  exact congrArg (fun f => Finset.fold max (Ideal.ofBits .f32 0xFF800000#32) f (Finset.univ : Finset (Fin 16))) hf

/-- The exponential of the score below the peak. -/
theorem weight_at (b : Fin 16) (i j : Fin 1024) : val_main_v9 (F := Ideal) q k (ix3 b i j) = weight q k b i j := by
  rw [val_main_v9_apply, val_main_v8_apply, val_main_v7_apply, val_main_v6_apply, score_at, peak_idx, peak_at]
  rfl

/-- The sum over the batch axis, from zero. -/
theorem total_at (i j : Fin 1024) : val_main_v10 (F := Ideal) q k (ix2 i j) = total q k i j := by
  rw [val_main_v10_apply]
  show Ideal.ofBits .f32 0x00000000#32 + _ = _
  rw [Ideal.ofBits_zero_f32, zero_add]
  unfold total
  refine Finset.sum_congr rfl fun b _ => ?_
  rw [batch_idx, weight_at]

/-- The quotient. -/
theorem prob_at (b : Fin 16) (i j : Fin 1024) : val_main_v13 (F := Ideal) q k (ix3 b i j) = prob q k b i j := by
  rw [val_main_v13_apply, val_main_v12_apply, val_main_v11_apply, weight_at, total_idx, total_at]
  rfl

/-- The reference's result is the batch-softmax attention of its arguments. -/
theorem reference_eq : val_main_v14 (F := Ideal) q k v = result q k v := by
  funext x
  obtain ⟨b, c, j, rfl⟩ : ∃ (b : Fin 16) (c : Fin 512) (j : Fin 1024), x = ix3 b c j := ⟨x 0, x 1, x 2, eq_ix3 x⟩
  rw [val_main_v14_apply, result_ix3]
  unfold resultAt
  refine Finset.sum_congr rfl fun i _ => ?_
  rw [value_idx, prob_idx, prob_at]

end Cert.ReferenceIdeal.Attention

end
-- ==== Proof.LibUnitAxes.lean ====
/-
  Unit axes inserted by a shape cast and filled by a broadcast, read at an index.

  Broadcasting a matrix along a new axis is written, on vectors, as a shape cast that inserts an axis of extent one
  followed by a broadcast along that axis. Read at an index `(i, j, k)` of the rank-3 result, the composite is the matrix
  at the two coordinates it keeps: `(i, k)` when the new axis is the middle one, `(j, k)` when it leads, `(i, j)` when it
  trails. The casts keep row-major positions (an axis of extent one contributes the digit zero); the broadcasts read
  coordinate zero on the unit axis and the result's own coordinate elsewhere.
-/
import Idealize.ShloMosaic.Lib.ValueIdx
import Idealize.ShloMosaic.Lib.ValueLayout
import Idealize.ShloMosaic.Lib.Pipeline.Value

namespace Idealize.ShloMosaic.UnitAxes

open Idealize.ShloMosaic Idealize.ShloMosaic.ValueIdx

variable {α : Type}

/-! ## The casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The broadcasts -/

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A matrix broadcast along a new axis -/

/-- A matrix over `(i, k)` repeated along a new MIDDLE axis. -/
theorem along_middle {a b c : ℕ} (y : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ y h) h' (ix3 i j k) = y (ix2 i k) :=
  (broadcastTo_a1c_abc_apply _ h' i j k).trans (shapeCast_ac_a1c_apply y h i 0 k)

/-- A matrix over `(j, k)` repeated along a new LEADING axis. -/
theorem along_leading {a b c : ℕ} (y : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ y h) h' (ix3 i j k) = y (ix2 j k) :=
  (broadcastTo_1bc_abc_apply _ h' i j k).trans (shapeCast_ab_1ab_apply y h 0 j k)

/-- A matrix over `(i, j)` repeated along a new TRAILING axis. -/
theorem along_trailing {a b c : ℕ} (y : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ y h) h' (ix3 i j k) = y (ix2 i j) :=
  (broadcastTo_ab1_abc_apply _ h' i j k).trans (shapeCast_ab_ab1_apply y h i j 0)

end Idealize.ShloMosaic.UnitAxes
-- ==== Proof.TileValue.lean ====
/-
  What the kernel's body computes on one tile of 128 query positions.

  The body takes the tile's queries (a [16, 512, 128] block), all the keys and all the values, and computes: the
  contraction of keys and queries over the channels times 2^-5 (scores, [16, 1024, 128]); their maximum over the batch
  axis (peaks, [1024, 128]), repeated along the batch axis; the exponential of the difference (weights); their sum
  over the batch axis (totals), repeated likewise; the quotient (probs); and the contraction of the values with the
  probs over the key positions ([16, 512, 128]). Read at an index, each stage is the specification's quantity for
  the tile's queries; the product with 2^-5 is the specification's quotient by 32.
-/
import proofs.«148985_j21835613733572_2_alg».proof.Proof.Gen.KernelIdeal.Skeleton
import proofs.«148985_j21835613733572_2_alg».proof.Proof.BatchSoftmax
import proofs.«148985_j21835613733572_2_alg».proof.Proof.LibUnitAxes
import Idealize.ShloMosaic.PureOps.Ideal.Laws
import Idealize.ShloMosaic.Lib.ValueIdx
import Idealize.ShloMosaic.Lib.Pipeline.Value

noncomputable section

open scoped BigOperators

namespace Cert.KernelIdeal.Tile

open Cert.KernelIdeal Cert.KernelIdeal.Gen
open Idealize.ShloMosaic Idealize.ShloMosaic.ValueIdx BatchSoftmax

/-- The contraction over the channels: batch on axis 0 of both operands, channels on axis 1, the free axes last. -/
abbrev D1 := dot_S16x512x1024_S16x512x128_S16x1024x128_1_1_2_2_0_0
/-- The contraction over the key positions: axis 2 of the values against axis 1 of the probabilities. -/
abbrev D2 := dot_S16x512x1024_S16x1024x128_S16x512x128_2_1_1_2_0_0

/-! ## The body's stages -/

variable (qt : FVec Ideal S16x512x128 .f32) (kk vv : FVec Ideal S16x512x1024 .bf16)

def scores : FVec Ideal S16x1024x128 .f32 :=
  mulf (matmul D1 none (shapeCast S16x512x1024 kk shapeCasts_S16x512x1024_S16x512x1024) (truncf .bf16 qt bitsLt_bf16_f32)
      (constant S16x1024x128 .f32 0x00000000#32))
    (broadcast S16x1024x128 (Scalar.ofBits .f32 0x3D000000#32))

def peaks : FVec Ideal S1024x128 .f32 :=
  multiReduction .maximumf [0] S1024x128 (scores qt kk) 0xFF800000#32 reduces_S16x1024x128_S1024x128 (.inl rfl) rfl

def weights : FVec Ideal S16x1024x128 .f32 :=
  exp (subf (scores qt kk) (broadcastTo S16x1024x128 (shapeCast S1x1024x128 (peaks qt kk) shapeCasts_S1024x128_S1x1024x128)
    broadcasts_S1x1024x128_S16x1024x128))

def totals : FVec Ideal S1024x128 .f32 :=
  multiReduction .add [0] S1024x128 (weights qt kk) 0x00000000#32 reduces_S16x1024x128_S1024x128 (.inl rfl) rfl

def probs : FVec Ideal S16x1024x128 .f32 :=
  divf (weights qt kk) (broadcastTo S16x1024x128 (shapeCast S1x1024x128 (totals qt kk) shapeCasts_S1024x128_S1x1024x128)
    broadcasts_S1x1024x128_S16x1024x128)

/-- The body's stored value is the last contraction over these stages. -/
theorem payload_eq : k0_pay1 (F := Ideal) qt kk vv
    = matmul D2 none (shapeCast S16x512x1024 vv shapeCasts_S16x512x1024_S16x512x1024) (truncf .bf16 (probs qt kk) bitsLt_bf16_f32)
        (constant S16x512x128 .f32 0x00000000#32) := rfl

/-! ## Where the two contractions read their operands -/

theorem d1_lhs0 (x : S16x1024x128.Idx) (p : D1.contr.Idx) : (D1.lhsIdx x p 0).val = (x 0).val := by
  unfold DotDims.lhsIdx
  rw [dif_pos (show (0 : Fin S16x512x1024.rank) ∈ D1.lhsBatch by decide)]
  rfl
theorem d1_lhs1 (x : S16x1024x128.Idx) (p : D1.contr.Idx) : (D1.lhsIdx x p 1).val = (p ⟨0, by decide⟩).val :=
  D1.lhsIdx_val_of_single rfl x p
theorem d1_lhs2 (x : S16x1024x128.Idx) (p : D1.contr.Idx) : (D1.lhsIdx x p 2).val = (x 1).val := by
  unfold DotDims.lhsIdx
  rw [dif_neg (show ¬(2 : Fin S16x512x1024.rank) ∈ D1.lhsBatch by decide),
    dif_pos (show (2 : Fin S16x512x1024.rank) ∈ D1.lhsNonContracting by decide)]
  rfl
theorem d1_rhs0 (x : S16x1024x128.Idx) (p : D1.contr.Idx) : (D1.rhsIdx x p 0).val = (x 0).val := by
  unfold DotDims.rhsIdx
  rw [dif_pos (show (0 : Fin S16x512x128.rank) ∈ D1.rhsBatch by decide)]
  rfl
theorem d1_rhs1 (x : S16x1024x128.Idx) (p : D1.contr.Idx) : (D1.rhsIdx x p 1).val = (p ⟨0, by decide⟩).val :=
  D1.rhsIdx_val_of_single rfl x p
theorem d1_rhs2 (x : S16x1024x128.Idx) (p : D1.contr.Idx) : (D1.rhsIdx x p 2).val = (x 2).val := by
  unfold DotDims.rhsIdx
  rw [dif_neg (show ¬(2 : Fin S16x512x128.rank) ∈ D1.rhsBatch by decide),
    dif_pos (show (2 : Fin S16x512x128.rank) ∈ D1.rhsNonContracting by decide)]
  rfl

theorem d2_lhs0 (x : S16x512x128.Idx) (p : D2.contr.Idx) : (D2.lhsIdx x p 0).val = (x 0).val := by
  unfold DotDims.lhsIdx
  rw [dif_pos (show (0 : Fin S16x512x1024.rank) ∈ D2.lhsBatch by decide)]
  rfl
theorem d2_lhs1 (x : S16x512x128.Idx) (p : D2.contr.Idx) : (D2.lhsIdx x p 1).val = (x 1).val := by
  unfold DotDims.lhsIdx
  rw [dif_neg (show ¬(1 : Fin S16x512x1024.rank) ∈ D2.lhsBatch by decide),
    dif_pos (show (1 : Fin S16x512x1024.rank) ∈ D2.lhsNonContracting by decide)]
  rfl
theorem d2_lhs2 (x : S16x512x128.Idx) (p : D2.contr.Idx) : (D2.lhsIdx x p 2).val = (p ⟨0, by decide⟩).val :=
  D2.lhsIdx_val_of_single rfl x p
theorem d2_rhs0 (x : S16x512x128.Idx) (p : D2.contr.Idx) : (D2.rhsIdx x p 0).val = (x 0).val := by
  unfold DotDims.rhsIdx
  rw [dif_pos (show (0 : Fin S16x1024x128.rank) ∈ D2.rhsBatch by decide)]
  rfl
theorem d2_rhs1 (x : S16x512x128.Idx) (p : D2.contr.Idx) : (D2.rhsIdx x p 1).val = (p ⟨0, by decide⟩).val :=
  D2.rhsIdx_val_of_single rfl x p
theorem d2_rhs2 (x : S16x512x128.Idx) (p : D2.contr.Idx) : (D2.rhsIdx x p 2).val = (x 2).val := by
  unfold DotDims.rhsIdx
  rw [dif_neg (show ¬(2 : Fin S16x1024x128.rank) ∈ D2.rhsBatch by decide),
    dif_pos (show (2 : Fin S16x1024x128.rank) ∈ D2.rhsNonContracting by decide)]
  rfl

/-- The index (i, j) of a reduced array with batch b put back is (b, i, j). -/
theorem lift_batch (h : S16x1024x128.Reduces [0] S1024x128) (i : Fin 1024) (j : Fin 128) (b : Fin (S16x1024x128.size 0)) :
    h.lift (ix2 i j) b = ix3 (⟨b.val, b.isLt⟩ : Fin 16) i j := by
  funext a; apply Fin.ext
  fin_cases a <;> rfl

/-! ## The stages at an index -/

/-- The first contraction at (b, i, j): the sum over the channels of key times query. -/
theorem contraction1_at (l : FVec Ideal S16x512x1024 .bf16) (r : FVec Ideal S16x512x128 .bf16) (b : Fin 16) (i : Fin 1024) (j : Fin 128) :
    matmul D1 none l r (constant S16x1024x128 .f32 0x00000000#32) (ix3 b i j) = ∑ c : Fin 512, l (ix3 b c i) * r (ix3 b c j) := by
  refine (Ideal.matmul_constant_zero_apply D1 none l r (ix3 b i j)).trans ?_
  rw [← Equiv.sum_comp (ValueIdx.contrEquiv1 D1 512 rfl rfl).symm]
  refine Finset.sum_congr rfl fun c _ => ?_
  have hc := ValueIdx.contrEquiv1_symm_val D1 512 rfl rfl c
  have el : D1.lhsIdx (ix3 b i j) ((ValueIdx.contrEquiv1 D1 512 rfl rfl).symm c) = ix3 b c i := funext fun a => Fin.ext (by
    match a with
    | ⟨0, _⟩ => exact d1_lhs0 _ _
    | ⟨1, _⟩ => exact (d1_lhs1 _ _).trans hc
    | ⟨2, _⟩ => exact d1_lhs2 _ _)
  have er : D1.rhsIdx (ix3 b i j) ((ValueIdx.contrEquiv1 D1 512 rfl rfl).symm c) = ix3 b c j := funext fun a => Fin.ext (by
    match a with
    | ⟨0, _⟩ => exact d1_rhs0 _ _
    | ⟨1, _⟩ => exact (d1_rhs1 _ _).trans hc
    | ⟨2, _⟩ => exact d1_rhs2 _ _)
  rw [el, er]

/-- The second contraction at (b, c, j): the sum over the key positions of value times probability. -/
theorem contraction2_at (l : FVec Ideal S16x512x1024 .bf16) (r : FVec Ideal S16x1024x128 .bf16) (b : Fin 16) (c : Fin 512) (j : Fin 128) :
    matmul D2 none l r (constant S16x512x128 .f32 0x00000000#32) (ix3 b c j) = ∑ i : Fin 1024, l (ix3 b c i) * r (ix3 b i j) := by
  refine (Ideal.matmul_constant_zero_apply D2 none l r (ix3 b c j)).trans ?_
  rw [← Equiv.sum_comp (ValueIdx.contrEquiv1 D2 1024 rfl rfl).symm]
  refine Finset.sum_congr rfl fun i _ => ?_
  have hi := ValueIdx.contrEquiv1_symm_val D2 1024 rfl rfl i
  have el : D2.lhsIdx (ix3 b c j) ((ValueIdx.contrEquiv1 D2 1024 rfl rfl).symm i) = ix3 b c i := funext fun a => Fin.ext (by
    match a with
    | ⟨0, _⟩ => exact d2_lhs0 _ _
    | ⟨1, _⟩ => exact d2_lhs1 _ _
    | ⟨2, _⟩ => exact (d2_lhs2 _ _).trans hi)
  have er : D2.rhsIdx (ix3 b c j) ((ValueIdx.contrEquiv1 D2 1024 rfl rfl).symm i) = ix3 b i j := funext fun a => Fin.ext (by
    match a with
    | ⟨0, _⟩ => exact d2_rhs0 _ _
    | ⟨1, _⟩ => exact (d2_rhs1 _ _).trans hi
    | ⟨2, _⟩ => exact d2_rhs2 _ _)
  rw [el, er]

theorem scores_at (b : Fin 16) (i : Fin 1024) (j : Fin 128) : scores qt kk (ix3 b i j) = score qt kk b i j := by
  unfold scores
  show matmul D1 none _ _ (constant S16x1024x128 .f32 0x00000000#32) (ix3 b i j) * Ideal.ofBits .f32 0x3D000000#32 = _
  rw [contraction1_at, shapeCast_self, mul_thirtysecond]
  rfl

theorem peaks_at (i : Fin 1024) (j : Fin 128) : peaks qt kk (ix2 i j) = peak qt kk i j := by
  unfold peaks
  refine (Ideal.multiReduction_maximumf_single (scores qt kk) 0xFF800000#32 reduces_S16x1024x128_S1024x128 (.inl rfl) rfl (ix2 i j)).trans ?_
  have hf : (scores qt kk ∘ reduces_S16x1024x128_S1024x128.lift (ix2 i j)) = fun b : Fin 16 => score qt kk b i j :=
    funext fun b => by
      show scores qt kk (reduces_S16x1024x128_S1024x128.lift (ix2 i j) b) = _
      rw [lift_batch _ i j b, scores_at]
      rfl
  exact congrArg (fun f => Finset.fold max (Ideal.ofBits .f32 0xFF800000#32) f (Finset.univ : Finset (Fin 16))) hf

theorem weights_at (b : Fin 16) (i : Fin 1024) (j : Fin 128) : weights qt kk (ix3 b i j) = weight qt kk b i j := by
  unfold weights
  show Ideal.exp (scores qt kk (ix3 b i j) - broadcastTo S16x1024x128 (shapeCast S1x1024x128 (peaks qt kk) _) _ (ix3 b i j)) = _
  rw [UnitAxes.along_leading, scores_at, peaks_at]
  rfl

theorem totals_at (i : Fin 1024) (j : Fin 128) : totals qt kk (ix2 i j) = total qt kk i j := by
  unfold totals
  refine (Ideal.multiReduction_add_single (weights qt kk) 0x00000000#32 reduces_S16x1024x128_S1024x128 (.inl rfl) rfl (ix2 i j)).trans ?_
  unfold total
  refine Finset.sum_congr rfl fun b _ => ?_
  rw [lift_batch _ i j b, weights_at]
  rfl

theorem probs_at (b : Fin 16) (i : Fin 1024) (j : Fin 128) : probs qt kk (ix3 b i j) = prob qt kk b i j := by
  unfold probs
  show Ideal.div (weights qt kk (ix3 b i j)) (broadcastTo S16x1024x128 (shapeCast S1x1024x128 (totals qt kk) _) _ (ix3 b i j)) = _
  rw [UnitAxes.along_leading, weights_at, totals_at]
  rfl

/-- The body's stored value at (b, c, j) is the attention of the tile's queries there. -/
theorem payload_at (b : Fin 16) (c : Fin 512) (j : Fin 128) :
    k0_pay1 (F := Ideal) qt kk vv (ix3 b c j) = resultAt qt kk vv b c j := by
  rw [payload_eq, contraction2_at, shapeCast_self]
  unfold resultAt
  refine Finset.sum_congr rfl fun i _ => ?_
  show vv (ix3 b c i) * probs qt kk (ix3 b i j) = _
  rw [probs_at]

end Cert.KernelIdeal.Tile

end
-- ==== Proof.KernelValue.lean ====
/-
  The kernel's result array is the batch-softmax attention of its three arguments.

  The grid has eight points; point t takes the tile of queries at positions 128 t .. 128 t + 127 (all batches and
  channels), all the keys and all the values, and writes the tile of the result at the same positions. Before the
  region the host casts keys and values to a narrower float format, which changes no extended real. So what point t
  writes back is the attention of its tile of queries (the tile module), which is the attention of the whole query
  array at the tile's positions, because a query position's result reads the queries at that position only. The eight
  tiles cover the result array: position p lies in the tile of point p / 128.
-/
import proofs.«148985_j21835613733572_2_alg».proof.Proof.Gen.KernelIdeal.Value
import proofs.«148985_j21835613733572_2_alg».proof.Proof.TileValue
import Idealize.ShloMosaic.Lib.Pipeline.Value
import Idealize.ShloMosaic.Lib.StableHlo.Run
import Idealize.ShloMosaic.Lib.Tactic

set_option maxRecDepth 16384

noncomputable section

namespace Cert.KernelIdeal.Attention

open Cert.KernelIdeal Cert.KernelIdeal.Gen Idealize.ShloMosaic Idealize.ShloMosaic.TcCoe Idealize.SL.Sem
open Idealize.ShloMosaic.Pipeline (Dat)
open Idealize.ShloMosaic.ValueIdx BatchSoftmax

variable (m : (ℓ : Loc nD τ sig) → Buf (Elt Ideal) ℓ) (ρ : Dev nD → PrngReg)

/-- The queries, keys and values as launched on core c. -/
abbrev queries (c : Dev nD) : Keys := m ((c : Thread nD τ).loc main_arg0)
abbrev keys (c : Dev nD) : Keys := m ((c : Thread nD τ).loc main_arg1)
abbrev values (c : Dev nD) : Keys := m ((c : Thread nD τ).loc main_arg2)

/-- The attention of the launched arrays: what the result array ends holding. -/
abbrev attention (c : Dev nD) : Buf (Elt Ideal) ((c : Thread nD τ).loc main_v2) :=
  result (queries m c) (keys m c) (values m c)

theorem zero_offsets : (![0, 0, 0] : Fin 3 → Nat) = fun _ => 0 := funext fun a => by fin_cases a <;> rfl

/-! ## The arrays the region finds -/

/-- The keys the region stages are the launched keys: the host's cast changes no extended real. -/
theorem keys_staged (c : Dev nD) : (V m c main_v0 : S16x512x1024.Idx → EReal) = keys m c := by
  dsimp only [V, hostOps0]; after_results; rfl

/-- Likewise the values. -/
theorem values_staged (c : Dev nD) : (V m c main_v1 : S16x512x1024.Idx → EReal) = values m c := by
  dsimp only [V, hostOps0]; after_results; rfl

/-! ## The blocks -/

/-- The block indices over the grid: the query and result windows move along the position axis with the point, the key and
    value windows stay at the origin. -/
theorem block_indices : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = t.val :=
  (by decide +kernel : ∀ t : Fin grid0.N, _)

/-- Point t's tile of queries is the query array at positions 128 t + j. -/
theorem query_tile (c : Dev nD) (t : Fin cfg0.N) (b : Fin 16) (ch : Fin 512) (j : Fin 128) (hj : 128 * t.val + j.val < 1024) :
    (iblk m c 0 t : FVec Ideal S16x512x128 .f32) (ix3 b ch j) = queries m c (ix3 b ch (⟨128 * t.val + j.val, hj⟩ : Fin 1024)) := by
  obtain ⟨e0, e1, e2, -⟩ := block_indices t
  unfold iblk
  show V m c main_arg0 (((cfg0.win 0).blk t).view.emb (ix3 b ch j)) = _
  rw [V_main_arg0]
  refine congrArg (queries m c) (funext fun a => Fin.ext ?_)
  match a with
  | ⟨0, _⟩ => show win0_0.index t (0 : Fin 3) * 16 + 1 * b.val = b.val; rw [e0]; omega
  | ⟨1, _⟩ => show win0_0.index t (1 : Fin 3) * 512 + 1 * ch.val = ch.val; rw [e1]; omega
  | ⟨2, _⟩ => show win0_0.index t (2 : Fin 3) * 128 + 1 * j.val = 128 * t.val + j.val; rw [e2]; omega

/-- Every point's block of keys is the whole key array. -/
theorem keys_tile (c : Dev nD) (t : Fin cfg0.N) : (iblk m c 1 t : FVec Ideal S16x512x1024 .bf16) = keys m c := by
  obtain ⟨-, -, -, e0, e1, e2, -⟩ := block_indices t
  funext y
  unfold iblk
  show V m c main_v0 (((cfg0.win 1).blk t).view.emb y) = _
  rw [keys_staged]
  refine congrArg (keys m c) (funext fun a => Fin.ext ?_)
  match a with
  | ⟨0, _⟩ => show win0_1.index t (0 : Fin 3) * 16 + 1 * (y 0).val = (y 0).val; rw [e0]; omega
  | ⟨1, _⟩ => show win0_1.index t (1 : Fin 3) * 512 + 1 * (y 1).val = (y 1).val; rw [e1]; omega
  | ⟨2, _⟩ => show win0_1.index t (2 : Fin 3) * 1024 + 1 * (y 2).val = (y 2).val; rw [e2]; omega

/-- Every point's block of values is the whole value array. -/
theorem values_tile (c : Dev nD) (t : Fin cfg0.N) : (iblk m c 2 t : FVec Ideal S16x512x1024 .bf16) = values m c := by
  obtain ⟨-, -, -, -, -, -, e0, e1, e2, -⟩ := block_indices t
  funext y
  unfold iblk
  show V m c main_v1 (((cfg0.win 2).blk t).view.emb y) = _
  rw [values_staged]
  refine congrArg (values m c) (funext fun a => Fin.ext ?_)
  match a with
  | ⟨0, _⟩ => show win0_2.index t (0 : Fin 3) * 16 + 1 * (y 0).val = (y 0).val; rw [e0]; omega
  | ⟨1, _⟩ => show win0_2.index t (1 : Fin 3) * 512 + 1 * (y 1).val = (y 1).val; rw [e1]; omega
  | ⟨2, _⟩ => show win0_2.index t (2 : Fin 3) * 1024 + 1 * (y 2).val = (y 2).val; rw [e2]; omega

/-! ## What a point writes back -/

/-- The body's value at element y of point t's tile is the attention of the launched arrays at the array index x that
    sits at y's batch and channel and at position 128 t + (y's position). -/
theorem tile_at (c : Dev nD) (t : Fin cfg0.N) (y : S16x512x128.Idx) (x : S16x512x1024.Idx)
    (h0 : (x 0).val = (y 0).val) (h1 : (x 1).val = (y 1).val) (h2 : (x 2).val = 128 * t.val + (y 2).val) :
    k0_pay1 (F := Ideal) (iblk m c 0 t) (iblk m c 1 t) (iblk m c 2 t) y = attention m c x := by
  obtain ⟨b, ch, j, rfl⟩ : ∃ (b : Fin 16) (ch : Fin 512) (j : Fin 128), y = ix3 b ch j := ⟨y 0, y 1, y 2, eq_ix3 y⟩
  have ht : t.val < 8 := by have h := t.isLt; have hN : cfg0.N = 8 := N_0; omega
  have hpos : ∀ j : Fin 128, 128 * t.val + j.val < 1024 := fun j => by have := j.isLt; omega
  have hx : x = ix3 b ch (⟨128 * t.val + j.val, hpos j⟩ : Fin 1024) := funext fun a => Fin.ext (by
    match a with
    | ⟨0, _⟩ => exact h0
    | ⟨1, _⟩ => exact h1
    | ⟨2, _⟩ => exact h2)
  rw [hx]
  refine (Tile.payload_at (iblk m c 0 t) (iblk m c 1 t) (iblk m c 2 t) b ch j).trans ?_
  rw [keys_tile m c t, values_tile m c t]
  exact resultAt_restrict (queries m c) (iblk m c 0 t) (fun j => (⟨128 * t.val + j.val, hpos j⟩ : Fin 1024))
    (fun b ch j => query_tile m c t b ch j (hpos j)) (keys m c) (values m c) b ch j

/-- WHAT POINT t WRITES BACK is tile t of the attention of the launched arrays. -/
theorem flushed_eq (c : Dev nD) (t : Fin cfg0.N) :
    (dats m 0 c).flushed 3 t = ((cfg0.win 3).blk t).view.read (Elt Ideal) (attention m c) := by
  obtain ⟨-, -, -, -, -, -, -, -, -, e0, e1, e2⟩ := block_indices t
  rw [Cert.KernelIdeal.Value.flushed3]
  unfold out0_3
  rw [View.canon_unit_zero zero_offsets]
  simp only [View.ld_unit_zero (S := S16x512x128) zero_offsets, View.ld_unit_zero (S := S16x512x1024) zero_offsets]
  funext y
  show k0_pay1 (F := Ideal) (iblk m c 0 t) (iblk m c 1 t) (iblk m c 2 t) y = attention m c (((cfg0.win 3).blk t).view.emb y)
  refine tile_at m c t y _ ?_ ?_ ?_
  · show win0_3.index t (0 : Fin 3) * 16 + 1 * (y 0).val = (y 0).val; rw [e0]; omega
  · show win0_3.index t (1 : Fin 3) * 512 + 1 * (y 1).val = (y 1).val; rw [e1]; omega
  · show win0_3.index t (2 : Fin 3) * 128 + 1 * (y 2).val = 128 * t.val + (y 2).val; rw [e2]; omega

/-! ## The tiles cover the array -/

/-- An index of the result array is in point t's tile iff each coordinate is in the tile's range on its axis. -/
theorem mem_tile (t : Fin cfg0.N) (i : S16x512x1024.Idx) :
    i ∈ ((cfg0.win 3).blk t).view.set ↔ ∀ a : Fin 3, win0_3.index t a * S16x512x128.size a ≤ (i a).val ∧ (i a).val < win0_3.index t a * S16x512x128.size a + S16x512x128.size a := by
  show i ∈ ((View.whole main_v2).slice (win0_3.rect t)).set ↔ _
  rw [View.set_slice_whole, Rect.mem_set_unit]
  exact Iff.rfl

/-- Position p lies in the tile of point p / 128. -/
theorem covered (i : S16x512x1024.Idx) : ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 1024 := (i 2).isLt
  have hN : cfg0.N = 8 := N_0
  obtain ⟨t, ht⟩ : ∃ t : Fin cfg0.N, t.val = (i 2).val / 128 := ⟨⟨(i 2).val / 128, by rw [hN]; omega⟩, rfl⟩
  obtain ⟨-, -, -, -, -, -, -, -, -, e0, e1, e2⟩ := block_indices t
  refine ⟨t, flush0_3 t, ?_⟩
  rw [mem_tile]
  intro a
  match a with
  | ⟨0, _⟩ => show win0_3.index t (0 : Fin 3) * 16 ≤ (i 0).val ∧ (i 0).val < win0_3.index t (0 : Fin 3) * 16 + 16; rw [e0]; omega
  | ⟨1, _⟩ => show win0_3.index t (1 : Fin 3) * 512 ≤ (i 1).val ∧ (i 1).val < win0_3.index t (1 : Fin 3) * 512 + 512; rw [e1]; omega
  | ⟨2, _⟩ => show win0_3.index t (2 : Fin 3) * 128 ≤ (i 2).val ∧ (i 2).val < win0_3.index t (2 : Fin 3) * 128 + 128; rw [e2, ht]; omega

/-! ## The run -/

/-- The result array after the run is the attention of the launched arrays. -/
theorem final (c : Dev nD) : (dats m 0 c).arrAt 3 cfg0.N = attention m c :=
  (dats m 0 c).arrAt_eq_of_cover 3 (attention m c) (fun t _ => flushed_eq m c t) covered

/-- Every weakly fair execution terminates with the result array at the attention of the launched arrays and the
    arguments unchanged. -/
theorem run : θ_run defs (onTc (τ := τ) (main (F := Ideal))) ⟨m, fun _ => 0, ρ⟩ fun r => ∀ c : Dev nD,
      r.2.mem ((c : Thread nD τ).loc main_v2) = attention m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Attention

end
-- ==== Proof.lean ====
/-
  The kernel and the reference compute the same attention, with the softmax taken over the batch axis.

  For queries q, keys k and values v, all [16, 512, 1024] over (batch, channel, position), both programs compute, on the
  extended reals,

    score b i j  = (sum over channels c of k[b, c, i] * q[b, c, j]) / 32,
    prob b i j   = exp (score b i j - max over b' of score b' i j) / (sum over b' of exp (score b' i j - that max)),
    result b c j = sum over key positions i of v[b, c, i] * prob b i j.

  The reference computes this over the whole arrays (its run, stage by stage: the reference-value module). The kernel
  computes it one tile of 128 query positions at a time, with the product by 2^-5 in place of the quotient by 32,
  equal on every extended real, and with format casts that change no extended real (the tile module); a query
  position's result reads the queries at that position only, and the eight tiles cover the result array (the
  kernel-value module). So both result arrays are one function of the arguments, and no finiteness of the inputs is
  used. The idealized kernel is the kernel's own text read on the extended reals: no rewrite was applied, so there is
  nothing to preserve. The three frames are the generated ones; the reference's is its run with the result dropped.
-/
import proofs.«148985_j21835613733572_2_alg».proof.Defs
import proofs.«148985_j21835613733572_2_alg».proof.Proof.Gen.Kernel
import proofs.«148985_j21835613733572_2_alg».proof.Proof.Gen.Kernel.Skeleton
import proofs.«148985_j21835613733572_2_alg».proof.Proof.Gen.Kernel.Launch
import proofs.«148985_j21835613733572_2_alg».proof.Proof.Gen.Kernel.Points
import proofs.«148985_j21835613733572_2_alg».proof.Proof.Gen.Kernel.Frame
import proofs.«148985_j21835613733572_2_alg».proof.Proof.Gen.KernelIdeal
import proofs.«148985_j21835613733572_2_alg».proof.Proof.Gen.KernelIdeal.Skeleton
import proofs.«148985_j21835613733572_2_alg».proof.Proof.Gen.KernelIdeal.Launch
import proofs.«148985_j21835613733572_2_alg».proof.Proof.Gen.KernelIdeal.Points
import proofs.«148985_j21835613733572_2_alg».proof.Proof.Gen.KernelIdeal.Frame
import proofs.«148985_j21835613733572_2_alg».proof.Proof.Gen.ReferenceIdeal
import proofs.«148985_j21835613733572_2_alg».proof.Proof.Gen.Pre_finite_inputs
import proofs.«148985_j21835613733572_2_alg».proof.Proof.Gen.KernelIdeal.Value
import proofs.«148985_j21835613733572_2_alg».proof.Proof.Gen.ReferenceIdeal.Run
import proofs.«148985_j21835613733572_2_alg».proof.Proof.Gen.ReferenceIdeal.Read
import proofs.«148985_j21835613733572_2_alg».proof.Proof.ReferenceValue
import proofs.«148985_j21835613733572_2_alg».proof.Proof.KernelValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both result arrays end at the attention of those arguments. -/
theorem algebraic : Cert.algebraic_KernelIdeal_ReferenceIdeal := by
  intro m ρ m' ρ' _ hagree
  refine ⟨fun c => Cert.KernelIdeal.Attention.attention m c, Cert.KernelIdeal.Attention.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Attention.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
